-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x1x4096 : Shape := ⟨3, ![4, 1, 4096]⟩
abbrev S1x4096x3 : Shape := ⟨3, ![1, 4096, 3]⟩
abbrev S1x512x3 : Shape := ⟨3, ![1, 512, 3]⟩
abbrev S1x1x512 : Shape := ⟨3, ![1, 1, 512]⟩
abbrev S1x1x4096 : Shape := ⟨3, ![1, 1, 4096]⟩
abbrev S1x4096 : Shape := ⟨2, ![1, 4096]⟩
abbrev S4096x3 : Shape := ⟨2, ![4096, 3]⟩
abbrev S512x3 : Shape := ⟨2, ![512, 3]⟩
abbrev S4096 : Shape := ⟨1, ![4096]⟩
abbrev S512 : Shape := ⟨1, ![512]⟩
abbrev S512x4096 : Shape := ⟨2, ![512, 4096]⟩
abbrev S512x1 : Shape := ⟨2, ![512, 1]⟩
abbrev S1x512 : Shape := ⟨2, ![1, 512]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x1x4096, .f32⟩
  | .hbm, ⟨3, _⟩ => ⟨S4x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x512x3, .f32⟩
  | .local _ .vmem, ⟨3, _⟩ => ⟨S1x512x3, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S4096x3_S4096 : S4096x3.Reduces [1] S4096
  reduces_S512x3_S512 : S512x3.Reduces [1] S512
  bitsLt_bf16_f32 : FTy.bits .bf16 < FTy.bits .f32
  shapeCasts_S512_S512x1 : S512.ShapeCasts S512x1
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S4x1x4096_S_d0_1_2 : S4x1x4096.ReducesTo [0, 1, 2] S_
  h_S_ : 0 < S_.numel
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x4096.size a
  hwx0_2 : ∀ i : grid0.Coords, EltTy.bits .f32 = 32 ∨ (Rect.block (s := S4x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Pieces.lean ====
/-
  What one run of the kernel body leaves behind, as values of what it loaded.

  At every grid point the body stores into the first result's block the row minima of the tile's distance table
  (`k0_pay5` of the two staged blocks). Into the carried row it stores the entrywise minimum of what the row held and
  the tile's column minima (`k0_pay6`), the row first reset to `+∞` (`k0_pay3`) at the first tile of a batch; and at
  the last tile of a batch it copies the carried row, as just stored, into the second result's block (`k0_pay2`).
  Each statement reads the body's stores into a buffer back as one whole-block value of the blocks it loaded.
-/
import proofs.«153332_j9268539424789_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first tile of a batch: the first result's block holds the tile's row minima. -/
theorem first_A (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : cond0_0 i) (hc1 : ¬cond0_1 i) (x0 : Vec F S1x4096x3 .f32) (x1 : Vec F S1x512x3 .f32) :
    out0_A_2 c i a2 h2 a3 h3 a4 h4 a5 h5 a6 h6 hc0 hc1 x0 x1 = k0_pay5 x0 x1 := by
  unfold out0_A_2
  rw [View.read_writes_eq_canon _ _ _ (cover0_A_2 c i a2 h2 a3 h3 a4 h4 a5 h5 a6 h6 hc0 hc1 x0 x1)]
  unfold kernelRun0_A
  dsimp only
  rw [View.canon_unit_zero hz3]
  simp only [View.readAt_eq_ld, h2.read_unread, h3.read_unread, h6.read_unread, View.ld_unit_zero (S := S1x4096x3) hz3, View.ld_unit_zero (S := S1x512x3) hz3, View.ld_unit_zero (S := S1x4096) hz2]

/-- The first tile of a batch: the carried row, reset to `+∞`, then holds its minimum with the tile's column minima. -/
theorem carried_A (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : cond0_0 i) (hc1 : ¬cond0_1 i) (x0 : Vec F S1x4096x3 .f32) (x1 : Vec F S1x512x3 .f32) :
    sout0_A_0 c i a2 h2 a3 h3 a4 h4 a5 h5 a6 h6 hc0 hc1 x0 x1 = k0_pay1 (k0_pay6 x0 x1 k0_pay3) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x4096) hz2, View.readCov_unit_zero (S := S1x4096) _ hz2]
  simp only [View.readAt_eq_ld, h2.read_unread, h3.read_unread, h6.read_unread, View.ld_unit_zero (S := S1x4096x3) hz3, View.ld_unit_zero (S := S1x512x3) hz3, View.ld_unit_zero (S := S1x4096) hz2]

/-- A middle tile: the first result's block holds the tile's row minima. -/
theorem first_B (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : ¬cond0_1 i) (x0 : Vec F S1x4096x3 .f32) (x1 : Vec F S1x512x3 .f32) (xs0 : Vec F S1x4096 .f32) :
    out0_B_2 c i a2 h2 a3 h3 a4 h4 a5 h5 a6 h6 hc0 hc1 x0 x1 xs0 = k0_pay5 x0 x1 := by
  unfold out0_B_2
  rw [View.read_writes_eq_canon _ _ _ (cover0_B_2 c i a2 h2 a3 h3 a4 h4 a5 h5 a6 h6 hc0 hc1 x0 x1 xs0)]
  unfold kernelRun0_B
  dsimp only
  rw [View.canon_unit_zero hz3]
  simp only [View.readAt_eq_ld, h2.read_unread, h3.read_unread, h6.read_unread, View.ld_unit_zero (S := S1x4096x3) hz3, View.ld_unit_zero (S := S1x512x3) hz3, View.ld_unit_zero (S := S1x4096) hz2]

/-- A middle tile: the carried row holds its minimum with the tile's column minima. -/
theorem carried_B (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : ¬cond0_1 i) (x0 : Vec F S1x4096x3 .f32) (x1 : Vec F S1x512x3 .f32) (xs0 : Vec F S1x4096 .f32) :
    sout0_B_0 c i a2 h2 a3 h3 a4 h4 a5 h5 a6 h6 hc0 hc1 x0 x1 xs0 = k0_pay1 (k0_pay6 x0 x1 xs0) := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S1x4096x3) hz3, View.ld_unit_zero (S := S1x512x3) hz3, View.ld_unit_zero (S := S1x4096) hz2]

/-- The last tile of a batch: the first result's block holds the tile's row minima. -/
theorem first_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i) (x0 : Vec F S1x4096x3 .f32) (x1 : Vec F S1x512x3 .f32) (xs0 : Vec F S1x4096 .f32) :
    out0_C_2 c i a2 h2 a3 h3 a4 h4 a5 h5 a6 h6 hc0 hc1 x0 x1 xs0 = k0_pay5 x0 x1 := by
  unfold out0_C_2
  rw [View.read_writes_eq_canon _ _ _ (cover0_C_2 c i a2 h2 a3 h3 a4 h4 a5 h5 a6 h6 hc0 hc1 x0 x1 xs0)]
  unfold kernelRun0_C
  dsimp only
  rw [View.canon_unit_zero hz3]
  simp only [View.readAt_eq_ld, h2.read_unread, h3.read_unread, h6.read_unread, View.ld_unit_zero (S := S1x4096x3) hz3, View.ld_unit_zero (S := S1x512x3) hz3, View.ld_unit_zero (S := S1x4096) hz2]

/-- The last tile of a batch: the carried row holds its minimum with the tile's column minima. -/
theorem carried_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i) (x0 : Vec F S1x4096x3 .f32) (x1 : Vec F S1x512x3 .f32) (xs0 : Vec F S1x4096 .f32) :
    sout0_C_0 c i a2 h2 a3 h3 a4 h4 a5 h5 a6 h6 hc0 hc1 x0 x1 xs0 = k0_pay1 (k0_pay6 x0 x1 xs0) := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S1x4096x3) hz3, View.ld_unit_zero (S := S1x512x3) hz3, View.ld_unit_zero (S := S1x4096) hz2]

/-- The last tile of a batch: the second result's block holds the carried row as just stored. -/
theorem second_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i) (x0 : Vec F S1x4096x3 .f32) (x1 : Vec F S1x512x3 .f32) (xs0 : Vec F S1x4096 .f32) :
    out0_C_3 c i a2 h2 a3 h3 a4 h4 a5 h5 a6 h6 hc0 hc1 x0 x1 xs0 = k0_pay2 (k0_pay1 (k0_pay6 x0 x1 xs0)) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3, View.readCov_unit_zero (S := S1x4096) _ hz2]
  simp only [View.readAt_eq_ld, h2.read_unread, h3.read_unread, h6.read_unread, View.ld_unit_zero (S := S1x4096x3) hz3, View.ld_unit_zero (S := S1x512x3) hz3, View.ld_unit_zero (S := S1x4096) hz2]

end Cert.KernelIdeal.Pieces

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibMinReduce.lean ====
/-
  A minimum along one axis read at an index given by coordinates, over the extended reals, at any extents.

  A lane minimum of a matrix `[a, b]` along its second axis (a row's least entry) or along its first axis (a column's
  least entry), and a one-operand reduction by `min` of an array `[a, b, c]` from an initial value along its last axis
  or along its middle axis, are each the fold of `min` from the accumulator's (respectively the initial) value over the
  reduced axis's coordinates: the index the reduction inserts coordinate `k` into is `(r, k)`, `(k, c)`, `(p, r, k)`,
  `(p, k, c)` respectively. The first statement is the general one, at any rank and axis, with the inserted index left
  as the reduction's own `lift`.
-/
import Idealize.ShloMosaic.Lib.ValueIdx
import Idealize.ShloMosaic.PureOps.Ideal.Laws

open scoped BigOperators

namespace Cert.Lib.MinReduce

open Idealize.ShloMosaic Idealize.ShloMosaic.ValueIdx

/-- Over the extended reals a lane minimum over ONE axis is, at each reduced index, the fold of `min` from the
    accumulator's value over that axis's coordinates of the source at the index with the coordinate put back. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row `r` of an `[a, b]` array: the lane minimum along the second axis, read at `r`. -/
theorem multiReduction_minimumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (r : Fin a) :
    multiReduction .minimumf [(1 : Fin 2)] ⟨1, ![a]⟩ src acc h hφ hacc (ix1 r)
      = (Finset.univ : Finset (Fin b)).fold min (FloatOps.ofBits φ acc) (fun k => src (ix2 r k)) := by
  rw [multiReduction_minimumf_single]
  exact congrArg ((Finset.univ : Finset (Fin b)).fold min (FloatOps.ofBits φ acc)) (funext fun k => congrArg src (funext fun c => Fin.ext (by
    match c with | ⟨0, _⟩ => rfl | ⟨1, _⟩ => rfl)))

/-- The least entry of column `c` of an `[a, b]` array: the lane minimum along the first axis, read at `c`. -/
theorem multiReduction_minimumf_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.minimumf.neutral φ hφ) (c : Fin b) :
    multiReduction .minimumf [(0 : Fin 2)] ⟨1, ![b]⟩ src acc h hφ hacc (ix1 c)
      = (Finset.univ : Finset (Fin a)).fold min (FloatOps.ofBits φ acc) (fun k => src (ix2 k c)) := by
  rw [multiReduction_minimumf_single]
  exact congrArg ((Finset.univ : Finset (Fin a)).fold min (FloatOps.ofBits φ acc)) (funext fun k => congrArg src (funext fun d => Fin.ext (by
    match d with | ⟨0, _⟩ => rfl | ⟨1, _⟩ => rfl)))

/-- A one-operand reduction by `min` of an `[a, b, c]` array along its LAST axis is, at `(p, r)`, the fold of `min`
    from the initial value over the `c` entries `(p, r, k)`. -/
theorem hostReduce_minimumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.minimumf (F := Ideal) (φ := φ)) x init h' hu (ix2 p r)
      = (Finset.univ : Finset (Fin c)).fold min (init (Shape.Idx.first hu)) (fun k => x (ix3 p r k)) := by
  rw [Host.reduce_eq_fold_single (FloatOps.minimumf (F := Ideal) (φ := φ)) x init h' h hu (ix2 p r)]
  exact congrArg ((Finset.univ : Finset (Fin c)).fold min (init (Shape.Idx.first hu))) (funext fun k => congrArg x (funext fun d => Fin.ext (by
    match d with | ⟨0, _⟩ => rfl | ⟨1, _⟩ => rfl | ⟨2, _⟩ => rfl)))

/-- A one-operand reduction by `min` of an `[a, b, c]` array along its MIDDLE axis is, at `(p, q)`, the fold of `min`
    from the initial value over the `b` entries `(p, k, q)`. -/
theorem hostReduce_minimumf_abc_ac_apply {φ : FTy} {a b c : ℕ} {u : Shape} (x : (⟨3, ![a, b, c]⟩ : Shape).Idx → Ideal φ)
    (init : u.Idx → Ideal φ) (h' : (⟨3, ![a, b, c]⟩ : Shape).ReducesTo [(1 : Fin 3)] ⟨2, ![a, c]⟩)
    (h : (⟨3, ![a, b, c]⟩ : Shape).Reduces [(1 : Fin 3)] ⟨2, ![a, c]⟩) (hu : 0 < u.numel) (p : Fin a) (q : Fin c) :
    Host.reduce (FloatOps.minimumf (F := Ideal) (φ := φ)) x init h' hu (ix2 p q)
      = (Finset.univ : Finset (Fin b)).fold min (init (Shape.Idx.first hu)) (fun k => x (ix3 p k q)) := by
  rw [Host.reduce_eq_fold_single (FloatOps.minimumf (F := Ideal) (φ := φ)) x init h' h hu (ix2 p q)]
  exact congrArg ((Finset.univ : Finset (Fin b)).fold min (init (Shape.Idx.first hu))) (funext fun k => congrArg x (funext fun d => Fin.ext (by
    match d with | ⟨0, _⟩ => rfl | ⟨1, _⟩ => rfl | ⟨2, _⟩ => rfl)))

end Cert.Lib.MinReduce
-- ==== Proof.Dist.lean ====
/-
  The distance table of two clouds of 4096 points of the extended-real 3-space, four batches of them, and the two
  nearest-neighbour margins of that table.

  For points `u` (of the second cloud) and `v` (of the first) the distance is taken by the expanded square,
  `sqrt (max ((|u|² + |v|²) - 2 · ⟨u, v⟩) 0)`, each of `|u|²`, `|v|²`, `⟨u, v⟩` a sum over the three coordinates.
  `nearFirst b p` is the least distance from point `p` of the second cloud to the first cloud (a minimum over `q`,
  taken from `+∞`), `nearSecond b q` the least distance from point `q` of the first cloud to the second (a minimum over
  `p`). The loss is the mean of the one margin plus the mean of the other, each mean a sum from `0` divided by the
  number of entries, `16384`.

  Two facts about these that do not depend on where the numbers come from: a number lies below a minimum taken from
  `+∞` exactly when it lies below every entry (so two such minima over the same entries, however grouped, are equal);
  and a sum over the indices of a `[a, 1, b]` array is the sum over the indices of the `[a, b]` array it flattens to.
-/
import Idealize.ShloMosaic.PureOps.Ideal
import Idealize.ShloMosaic.PureOps.Ideal.Laws
import Idealize.ShloMosaic.Lib.ValueIdx

open scoped BigOperators

noncomputable section

namespace Cert.Chamfer

open Idealize.ShloMosaic Idealize.ShloMosaic.ValueIdx

/-- The four float constants of the computation, as the extended reals their words denote. -/
abbrev two : EReal := Ideal.ofBits .f32 0x40000000#32
abbrev zero : EReal := Ideal.ofBits .f32 0x00000000#32
abbrev inf : EReal := Ideal.ofBits .f32 0x7F800000#32
abbrev count : EReal := Ideal.ofBits .f32 0x46800000#32

/-- The word `0x7F800000` denotes `+∞`, the top of the extended reals. -/
theorem inf_eq_top : inf = ⊤ := by
  simp [inf, Ideal.ofBits, Ideal.ieee]

/-- The distance between `u` and `v` by the expanded square. -/
def gap (u v : Fin 3 → EReal) : EReal :=
  Ideal.sqrt (max (((∑ d : Fin 3, u d * u d) + (∑ d : Fin 3, v d * v d)) - two * ∑ d : Fin 3, u d * v d) zero)

/-- A batch of clouds: four clouds of 4096 points with three coordinates each. -/
abbrev Clouds : Type := (⟨3, ![4, 4096, 3]⟩ : Shape).Idx → EReal

/-- Point `p` of cloud `b`. -/
abbrev pt (x : Clouds) (b : Fin 4) (p : Fin 4096) : Fin 3 → EReal := fun d => x (ix3 b p d)

/-- The least distance from point `p` of the second cloud `y` to the points of the first cloud `x`. -/
def nearFirst (x y : Clouds) (b : Fin 4) (p : Fin 4096) : EReal :=
  (Finset.univ : Finset (Fin 4096)).fold min inf (fun q => gap (pt y b p) (pt x b q))

/-- The least distance from point `q` of the first cloud `x` to the points of the second cloud `y`. -/
def nearSecond (x y : Clouds) (b : Fin 4) (q : Fin 4096) : EReal :=
  (Finset.univ : Finset (Fin 4096)).fold min inf (fun p => gap (pt y b p) (pt x b q))

/-- The mean of the one margin plus the mean of the other. -/
def loss (x y : Clouds) : EReal :=
  Ideal.div (zero + ∑ j : (⟨2, ![4, 4096]⟩ : Shape).Idx, nearFirst x y (j 0) (j 1)) count
    + Ideal.div (zero + ∑ j : (⟨2, ![4, 4096]⟩ : Shape).Idx, nearSecond x y (j 0) (j 1)) count

/-- A number lies below a minimum taken from `+∞` over a finite family exactly when it lies below every entry. -/
theorem le_fold_min_inf {ι : Type} [Fintype ι] (g : ι → EReal) (e : EReal) :
    e ≤ (Finset.univ : Finset ι).fold min inf g ↔ ∀ k, e ≤ g k := by
  rw [Finset.le_fold_min, inf_eq_top]
  exact ⟨fun h k => h.2 k (Finset.mem_univ k), fun h => ⟨le_top, fun k _ => h k⟩⟩

theorem le_nearSecond_iff (x y : Clouds) (b : Fin 4) (q : Fin 4096) (e : EReal) :
    e ≤ nearSecond x y b q ↔ ∀ p : Fin 4096, e ≤ gap (pt y b p) (pt x b q) :=
  le_fold_min_inf _ e

/-- The minimum of `+∞` and a number is that number. -/
theorem min_inf_left (v : EReal) : min inf v = v := by
  rw [inf_eq_top]; exact min_eq_right le_top

/-- The indices of a `[a, 1, b]` array and of the `[a, b]` array it flattens to correspond one to one, the unit
    coordinate dropped. -/
def dropMid {a b : ℕ} : (⟨3, ![a, 1, b]⟩ : Shape).Idx ≃ (⟨2, ![a, b]⟩ : Shape).Idx where
  toFun j := ix2 (j 0) (j 2)
  invFun i := ix3 (i 0) (0 : Fin 1) (i 1)
  left_inv j := funext fun c => by
    match c with
    | ⟨0, _⟩ => rfl
    | ⟨1, _⟩ => exact Fin.ext (by have h : (j 1).val < 1 := (j 1).isLt; show 0 = (j 1).val; omega)
    | ⟨2, _⟩ => rfl
  right_inv i := funext fun c => by
    match c with
    | ⟨0, _⟩ => rfl
    | ⟨1, _⟩ => rfl

/-- So a sum over the one is the sum over the other. -/
theorem sum_dropMid {M : Type} [AddCommMonoid M] {a b : ℕ} (f : Fin a → Fin b → M) :
    ∑ j : (⟨3, ![a, 1, b]⟩ : Shape).Idx, f (j 0) (j 2) = ∑ j : (⟨2, ![a, b]⟩ : Shape).Idx, f (j 0) (j 1) :=
  Fintype.sum_equiv dropMid _ _ fun _ => rfl

end Cert.Chamfer

end
-- ==== Proof.TileDist.lean ====
/-
  The arithmetic of one tile, entry by entry, over the extended reals.

  A tile pairs the 512 staged points of the second cloud with the 4096 staged points of the first. Its table entry
  `(p, q)` is the distance `gap` between point `p` of the one block and point `q` of the other: the squared norms
  are lane sums of the squared coordinates, spread along rows and columns by a column and a row broadcast, and the
  inner product is the matrix product of the two blocks contracted over the three coordinates (the narrowing of its
  operands changes nothing over the extended reals). Entry `p` of the block stored to the first result is the minimum
  of row `p` of the table taken from `+∞`; entry `q` of the carried row becomes the minimum of what it held and of
  column `q` of the table.
-/
import proofs.«153332_j9268539424789_2_alg».proof.Proof.Gen.KernelIdeal.Skeleton
import proofs.«153332_j9268539424789_2_alg».proof.Proof.LibColumns
import proofs.«153332_j9268539424789_2_alg».proof.Proof.LibMinReduce
import proofs.«153332_j9268539424789_2_alg».proof.Proof.Dist
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Tile

open Cert.KernelIdeal Cert.KernelIdeal.Gen Idealize.ShloMosaic Idealize.ShloMosaic.ValueIdx Cert.Chamfer

/-- Point `p` of a staged block of `n` points. -/
abbrev blockPt {n : ℕ} (v : (⟨3, ![1, n, 3]⟩ : Shape).Idx → EReal) (p : Fin n) : Fin 3 → EReal :=
  fun d => v (ix3 (0 : Fin 1) p d)

/-- The squared norm of row `p` of a `[512, 3]` matrix, as the kernel spreads it over the tile: a lane sum, recast
    as a column, broadcast along the rows. -/
theorem rowNorm_apply (v : FVec Ideal S512x3 .f32) (hr : S512x3.Reduces [1] S512) (hc : S512.ShapeCasts S512x1)
    (hb : S512x1.Broadcasts S512x4096) (hφ : FKind.Formats .f32) (hacc : (0x00000000#32 : BitVec 32) = FKind.add.neutral .f32 hφ)
    (p : Fin 512) (q : Fin 4096) :
    broadcastTo S512x4096 (shapeCast S512x1 (multiReduction .add [1] S512 (mulf v v) 0x00000000#32 hr hφ hacc) hc) hb (ix2 p q)
      = ∑ d : Fin 3, v (ix2 p d) * v (ix2 p d) :=
  (Cert.Lib.Columns.broadcastTo_a1_ab_apply _ hb p q).trans
    ((Cert.Lib.Columns.shapeCast_a_a1_apply _ hc p (0 : Fin 1)).trans
      (Cert.Lib.Columns.multiReduction_add_ab_a_apply (mulf v v) _ hr hφ hacc p))

/-- The squared norm of row `q` of a `[4096, 3]` matrix, as the kernel spreads it over the tile: a lane sum, recast
    as a row, broadcast down the columns. -/
theorem colNorm_apply (v : FVec Ideal S4096x3 .f32) (hr : S4096x3.Reduces [1] S4096) (hc : S4096.ShapeCasts S1x4096)
    (hb : S1x4096.Broadcasts S512x4096) (hφ : FKind.Formats .f32) (hacc : (0x00000000#32 : BitVec 32) = FKind.add.neutral .f32 hφ)
    (p : Fin 512) (q : Fin 4096) :
    broadcastTo S512x4096 (shapeCast S1x4096 (multiReduction .add [1] S4096 (mulf v v) 0x00000000#32 hr hφ hacc) hc) hb (ix2 p q)
      = ∑ d : Fin 3, v (ix2 q d) * v (ix2 q d) :=
  (broadcastTo_1b_ab_apply _ hb p q).trans
    ((shapeCast_a_1a_apply _ hc (0 : Fin 1) q).trans
      (Cert.Lib.Columns.multiReduction_add_ab_a_apply (mulf v v) _ hr hφ hacc q))

/-- The left operand's row coordinate at output index `i` is the output's row; -/
theorem lhs_row (i : S512x4096.Idx) (k : dot_S512x3_S4096x3_S512x4096_1_1_0_0_n_n.contr.Idx) : (dot_S512x3_S4096x3_S512x4096_1_1_0_0_n_n.lhsIdx i k 0).val = (i 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl

/-- the right operand's row coordinate is the output's column. -/
theorem rhs_row (i : S512x4096.Idx) (k : dot_S512x3_S4096x3_S512x4096_1_1_0_0_n_n.contr.Idx) : (dot_S512x3_S4096x3_S512x4096_1_1_0_0_n_n.rhsIdx i k 0).val = (i 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl

/-- The matrix product of the two blocks, contracted over the coordinate axis of both, into a zero accumulator: at
    `(p, q)` the inner product of row `p` of the left block and row `q` of the right. -/
theorem cross_apply (l : FVec Ideal S512x3 .bf16) (r : FVec Ideal S4096x3 .bf16) (p : Fin 512) (q : Fin 4096) :
    matmul dot_S512x3_S4096x3_S512x4096_1_1_0_0_n_n none l r (constant S512x4096 .f32 0x00000000#32) (ix2 p q)
      = ∑ d : Fin 3, l (ix2 p d) * r (ix2 q d) := by
  simp only [matmul]
  rw [Ideal.matmul_constant_zero_apply, ← Equiv.sum_comp (ValueIdx.contrEquiv1 dot_S512x3_S4096x3_S512x4096_1_1_0_0_n_n 3 rfl rfl).symm]
  refine Finset.sum_congr rfl fun k _ => ?_
  have hk := ValueIdx.contrEquiv1_symm_val dot_S512x3_S4096x3_S512x4096_1_1_0_0_n_n 3 rfl rfl k
  have el : dot_S512x3_S4096x3_S512x4096_1_1_0_0_n_n.lhsIdx (ix2 p q) ((ValueIdx.contrEquiv1 dot_S512x3_S4096x3_S512x4096_1_1_0_0_n_n 3 rfl rfl).symm k) = ix2 p k := funext fun a => Fin.ext (by
    match a with
    | ⟨0, _⟩ => exact lhs_row _ _
    | ⟨1, _⟩ => exact (dot_S512x3_S4096x3_S512x4096_1_1_0_0_n_n.lhsIdx_val_of_single rfl _ _).trans hk)
  have er : dot_S512x3_S4096x3_S512x4096_1_1_0_0_n_n.rhsIdx (ix2 p q) ((ValueIdx.contrEquiv1 dot_S512x3_S4096x3_S512x4096_1_1_0_0_n_n 3 rfl rfl).symm k) = ix2 q k := funext fun a => Fin.ext (by
    match a with
    | ⟨0, _⟩ => exact rhs_row _ _
    | ⟨1, _⟩ => exact (dot_S512x3_S4096x3_S512x4096_1_1_0_0_n_n.rhsIdx_val_of_single rfl _ _).trans hk)
  rw [el, er]

/-- Entry `(p, q)` of the tile's table is the distance between point `p` of the staged tile of the second cloud and
    point `q` of the staged first cloud. -/
theorem table_apply (x0 : Vec Ideal S1x4096x3 .f32) (x1 : Vec Ideal S1x512x3 .f32) (p : Fin 512) (q : Fin 4096) :
    k0_pay4 (F := Ideal) x0 x1 (ix2 p q) = gap (blockPt x1 p) (blockPt x0 q) := by
  unfold k0_pay4 gap
  show Ideal.sqrt (max ((_ + _) - two * _) zero) = Ideal.sqrt (max ((_ + _) - two * _) zero)
  have e1 : ∀ d : Fin 3, shapeCast S512x3 x1 shapeCasts_S1x512x3_S512x3 (ix2 p d) = x1 (ix3 (0 : Fin 1) p d) :=
    fun d => shapeCast_1ab_ab_apply x1 _ p d
  have e0 : ∀ d : Fin 3, shapeCast S4096x3 x0 shapeCasts_S1x4096x3_S4096x3 (ix2 q d) = x0 (ix3 (0 : Fin 1) q d) :=
    fun d => shapeCast_1ab_ab_apply x0 _ q d
  refine congrArg Ideal.sqrt (congrArg (fun t => max t zero) ?_)
  refine congrArg₂ (fun a c => a - two * c) (congrArg₂ (fun a c => a + c) ?_ ?_) ?_
  · refine (rowNorm_apply _ _ _ _ _ _ p q).trans (Finset.sum_congr rfl fun d _ => ?_)
    rw [e1 d]
  · refine (colNorm_apply _ _ _ _ _ _ p q).trans (Finset.sum_congr rfl fun d _ => ?_)
    rw [e0 d]
  · refine (cross_apply _ _ p q).trans (Finset.sum_congr rfl fun d _ => ?_)
    exact congrArg₂ (fun a c => a * c) (e1 d) (e0 d)

/-- Entry `p` of the block stored to the first result: the minimum of row `p` of the tile's table, taken from `+∞`. -/
theorem rowMin_apply (x0 : Vec Ideal S1x4096x3 .f32) (x1 : Vec Ideal S1x512x3 .f32) (p : Fin 512) :
    k0_pay5 (F := Ideal) x0 x1 (ix3 (0 : Fin 1) (0 : Fin 1) p)
      = (Finset.univ : Finset (Fin 4096)).fold min inf (fun q => k0_pay4 (F := Ideal) x0 x1 (ix2 p q)) := by
  unfold k0_pay5
  refine (shapeCast_ab_1ab_apply _ _ (0 : Fin 1) (0 : Fin 1) p).trans ?_
  refine (shapeCast_a_1a_apply _ _ (0 : Fin 1) p).trans ?_
  exact Cert.Lib.MinReduce.multiReduction_minimumf_ab_a_apply (k0_pay4 (F := Ideal) x0 x1) _ _ _ _ p

/-- Entry `q` of the carried row after a tile: the minimum of what it held and of column `q` of the tile's table. -/
theorem carry_apply (x0 : Vec Ideal S1x4096x3 .f32) (x1 : Vec Ideal S1x512x3 .f32) (v : Vec Ideal S1x4096 .f32) (q : Fin 4096) :
    k0_pay1 (F := Ideal) (k0_pay6 (F := Ideal) x0 x1 v) (ix2 (0 : Fin 1) q)
      = min (v (ix2 (0 : Fin 1) q)) ((Finset.univ : Finset (Fin 512)).fold min inf (fun p => k0_pay4 (F := Ideal) x0 x1 (ix2 p q))) := by
  unfold k0_pay1
  rw [shapeCast_self]
  unfold k0_pay6
  show min (v (ix2 (0 : Fin 1) q)) _ = _
  refine congrArg (fun t => min (v (ix2 (0 : Fin 1) q)) t) ?_
  refine (shapeCast_a_1a_apply _ _ (0 : Fin 1) q).trans ?_
  exact Cert.Lib.MinReduce.multiReduction_minimumf_ab_b_apply (k0_pay4 (F := Ideal) x0 x1) _ _ _ _ q

/-- The row the carried buffer is reset to at the first tile of a batch is `+∞` everywhere. -/
theorem reset_apply (q : Fin 4096) : k0_pay3 (F := Ideal) (ix2 (0 : Fin 1) q) = inf := by
  unfold k0_pay3
  rw [shapeCast_self]
  rfl

/-- The block stored to the second result is the carried row with a unit axis put in front. -/
theorem copy_apply (v : Vec Ideal S1x4096 .f32) (q : Fin 4096) :
    k0_pay2 (F := Ideal) v (ix3 (0 : Fin 1) (0 : Fin 1) q) = v (ix2 (0 : Fin 1) q) := by
  unfold k0_pay2
  exact shapeCast_ab_1ab_apply _ _ (0 : Fin 1) (0 : Fin 1) q

end Cert.KernelIdeal.Tile

end
-- ==== Proof.Blocks.lean ====
/-
  Which entries of the two clouds a grid point stages.

  The grid has 4 × 8 points; point number `t` works on batch `t / 8` and on tile `t % 8` of the second cloud. The
  first cloud's block at `t` is the whole cloud of batch `t / 8`; the second cloud's block is its points
  `512 · (t % 8) … 512 · (t % 8) + 511`; the first result's block is entries `512 · (t % 8) …` of row `t / 8`, the
  second result's block the whole row `t / 8`. The printed index maps say so, decided once over the 32 points; a
  block's coordinate is always the block index times the block's extent plus the coordinate inside the block.
-/
import proofs.«153332_j9268539424789_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four windows' block indices at point `t`, as arithmetic of the point's number. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

/-- The first cloud's staged block at point `t` is the cloud of batch `t / 8`. -/
theorem firstCloud_apply (c : Dev nD) (t : Fin cfg0.N) (b : Fin 4) (hb : b.val = t.val / 8) (q : Fin 4096) (d : Fin 3) :
    (iblk m c 0 t : Vec F S1x4096x3 .f32) (ix3 (0 : Fin 1) q d) = V m c main_arg0 (ix3 b q d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 4096 + 1 * q.val = q.val; omega
  | ⟨2, _⟩ => show win0_0.index t (2 : Fin 3) * 3 + 1 * d.val = d.val; omega

/-- The second cloud's staged block at point `t` is tile `t % 8` of the cloud of batch `t / 8`. -/
theorem secondCloud_apply (c : Dev nD) (t : Fin cfg0.N) (b : Fin 4) (hb : b.val = t.val / 8) (p : Fin 512) (P : Fin 4096)
    (hP : P.val = 512 * (t.val % 8) + p.val) (d : Fin 3) :
    (iblk m c 1 t : Vec F S1x512x3 .f32) (ix3 (0 : Fin 1) p d) = V m c main_arg1 (ix3 b P d) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 512 + 1 * p.val = P.val; omega
  | ⟨2, _⟩ => show win0_1.index t (2 : Fin 3) * 3 + 1 * d.val = d.val; omega

end Cert.KernelIdeal.Blocks

end
-- ==== Proof.Carried.lean ====
/-
  What the result blocks and the carried row hold after each grid point, over the extended reals.

  After point `t` (batch `b = t / 8`, tile `k = t % 8`) the first result's staged block holds, at `p`, the least
  distance from point `512 k + p` of the second cloud to the first cloud. The carried row holds, at `q`, the least
  distance from point `q` of the first cloud to the points of the second cloud's tiles `0 … k`: it starts from
  `+∞` at tile `0` and each tile takes its minimum with that tile's column minima. This is carried through the grid
  by the universal property of a minimum — a number lies below the row's entry exactly when it lies below the
  distance to every point seen so far — so no order of taking the minima is ever compared with another. After tile
  `7` every point of the second cloud has been seen, and the second result's block, a copy of the row, holds the least
  distance to the whole second cloud.
-/
import proofs.«153332_j9268539424789_2_alg».proof.Proof.Gen.KernelIdeal.Frame
import proofs.«153332_j9268539424789_2_alg».proof.Proof.Pieces
import proofs.«153332_j9268539424789_2_alg».proof.Proof.TileDist
import proofs.«153332_j9268539424789_2_alg».proof.Proof.Blocks
import proofs.«153332_j9268539424789_2_alg».proof.Proof.Dist

noncomputable section

open Idealize.ShloMosaic Idealize.ShloMosaic.TcCoe Idealize.SL.Sem
open Idealize.ShloMosaic.Pipeline (Dat)

namespace Cert.KernelIdeal.Carried

open Cert.KernelIdeal Cert.KernelIdeal.Gen Idealize.ShloMosaic.ValueIdx Cert.Chamfer

variable (m : (ℓ : Loc nD τ sig) → Buf (Elt Ideal) ℓ)

/-- The two clouds, as the region finds them. -/
abbrev X (c : Dev nD) : Clouds := V m c main_arg0
abbrev Y (c : Dev nD) : Clouds := V m c main_arg1

/-- What the carried row held before point `t`. -/
abbrev prev (c : Dev nD) (t : Fin cfg0.N) : Vec Ideal S1x4096 .f32 :=
  (outsAt0 m c (t.val - 1) (Nat.lt_of_le_of_lt (Nat.sub_le _ _) t.isLt)).2.2

/-! ## The three buffers after a point, as values of the point's blocks -/

theorem first_eq (c : Dev nD) (t : Fin cfg0.N) :
    (outsAt0 m c t.val t.isLt).1 = k0_pay5 (F := Ideal) (iblk m c 0 t) (iblk m c 1 t) := by
  by_cases h0 : t.val % 8 = 0
  · have h1 : ¬t.val % 8 = 7 := by omega
    rw [outsAt0_A m c t h0 h1]
    dsimp only
    exact Pieces.first_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]
      dsimp only
      exact Pieces.first_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (prev m c t)
    · rw [outsAt0_B m c t h0 h1]
      dsimp only
      exact Pieces.first_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (prev m c t)

theorem carried_eq_first (c : Dev nD) (t : Fin cfg0.N) (h0 : t.val % 8 = 0) :
    (outsAt0 m c t.val t.isLt).2.2 = k0_pay1 (F := Ideal) (k0_pay6 (F := Ideal) (iblk m c 0 t) (iblk m c 1 t) (k0_pay3 (F := Ideal))) := by
  have h1 : ¬t.val % 8 = 7 := by omega
  rw [outsAt0_A m c t h0 h1]
  dsimp only
  exact Pieces.carried_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

theorem carried_eq_next (c : Dev nD) (t : Fin cfg0.N) (h0 : ¬t.val % 8 = 0) :
    (outsAt0 m c t.val t.isLt).2.2 = k0_pay1 (F := Ideal) (k0_pay6 (F := Ideal) (iblk m c 0 t) (iblk m c 1 t) (prev m c t)) := by
  by_cases h1 : t.val % 8 = 7
  · rw [outsAt0_C m c t h0 h1]
    dsimp only
    exact Pieces.carried_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (prev m c t)
  · rw [outsAt0_B m c t h0 h1]
    dsimp only
    exact Pieces.carried_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (prev m c t)

theorem second_eq (c : Dev nD) (t : Fin cfg0.N) (h1 : t.val % 8 = 7) :
    (outsAt0 m c t.val t.isLt).2.1
      = k0_pay2 (F := Ideal) (k0_pay1 (F := Ideal) (k0_pay6 (F := Ideal) (iblk m c 0 t) (iblk m c 1 t) (prev m c t))) := by
  have h0 : ¬t.val % 8 = 0 := by omega
  rw [outsAt0_C m c t h0 h1]
  dsimp only
  exact Pieces.second_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (prev m c t)

/-! ## The tile's table in terms of the clouds -/

/-- Entry `(p, q)` of the table of point `t` is the distance between point `512 (t % 8) + p` of the second cloud and
    point `q` of the first, in batch `t / 8`. -/
theorem table_eq (c : Dev nD) (t : Fin cfg0.N) (b : Fin 4) (hb : b.val = t.val / 8) (p : Fin 512) (P : Fin 4096)
    (hP : P.val = 512 * (t.val % 8) + p.val) (q : Fin 4096) :
    k0_pay4 (F := Ideal) (iblk m c 0 t) (iblk m c 1 t) (ix2 p q) = gap (pt (Y m c) b P) (pt (X m c) b q) :=
  (Tile.table_apply (iblk m c 0 t) (iblk m c 1 t) p q).trans
    (congrArg₂ gap (funext fun d => Blocks.secondCloud_apply m c t b hb p P hP d)
      (funext fun d => Blocks.firstCloud_apply m c t b hb q d))

/-! ## The first result -/

/-- Entry `p` of the first result's block after point `t`: the least distance from point `512 (t % 8) + p` of the
    second cloud to the first cloud. -/
theorem first_apply (c : Dev nD) (t : Fin cfg0.N) (b : Fin 4) (hb : b.val = t.val / 8) (p : Fin 512) (P : Fin 4096)
    (hP : P.val = 512 * (t.val % 8) + p.val) :
    (outsAt0 m c t.val t.isLt).1 (ix3 (0 : Fin 1) (0 : Fin 1) p) = nearFirst (X m c) (Y m c) b P := by
  rw [first_eq m c t]
  refine (Tile.rowMin_apply (iblk m c 0 t) (iblk m c 1 t) p).trans ?_
  unfold nearFirst
  exact congrArg ((Finset.univ : Finset (Fin 4096)).fold min inf) (funext fun q => table_eq m c t b hb p P hP q)

/-! ## The carried row -/

/-- The points below `512 (k + 1)` are those below `512 k` together with the 512 points of tile `k`. -/
theorem forall_lt_tile_iff (Q : Fin 4096 → Prop) (k : ℕ) (hk : k < 8) :
    ((∀ i : Fin 4096, i.val < 512 * k → Q i) ∧ ∀ r : Fin 512, ∀ i : Fin 4096, i.val = 512 * k + r.val → Q i)
      ↔ ∀ i : Fin 4096, i.val < 512 * (k + 1) → Q i := by
  constructor
  · rintro ⟨h1, h2⟩ i hi
    by_cases hlt : i.val < 512 * k
    · exact h1 i hlt
    · exact h2 ⟨i.val - 512 * k, by omega⟩ i (by show i.val = 512 * k + (i.val - 512 * k); omega)
  · intro h
    exact ⟨fun i hi => h i (by omega), fun r i hi => h i (by have := r.isLt; omega)⟩

/-- One tile's update of the carried row: if the row's entry `q` bounds from above exactly the numbers below the
    distances to the points before tile `t % 8`, then after point `t` it does so for the points through that tile. -/
theorem step (c : Dev nD) (t : Fin cfg0.N) (b : Fin 4) (hb : b.val = t.val / 8) (v : Vec Ideal S1x4096 .f32) (q : Fin 4096)
    (e : EReal)
    (hv : e ≤ v (ix2 (0 : Fin 1) q) ↔ ∀ P : Fin 4096, P.val < 512 * (t.val % 8) → e ≤ gap (pt (Y m c) b P) (pt (X m c) b q)) :
    e ≤ k0_pay1 (F := Ideal) (k0_pay6 (F := Ideal) (iblk m c 0 t) (iblk m c 1 t) v) (ix2 (0 : Fin 1) q)
      ↔ ∀ P : Fin 4096, P.val < 512 * (t.val % 8 + 1) → e ≤ gap (pt (Y m c) b P) (pt (X m c) b q) := by
  rw [Tile.carry_apply (iblk m c 0 t) (iblk m c 1 t) v q, le_min_iff, hv, le_fold_min_inf]
  rw [← forall_lt_tile_iff (fun P => e ≤ gap (pt (Y m c) b P) (pt (X m c) b q)) (t.val % 8) (Nat.mod_lt _ (by decide))]
  refine and_congr_right fun _ => ⟨fun h r i hi => ?_, fun h p => ?_⟩
  · rw [← table_eq m c t b hb r i hi q]; exact h r
  · have hlt : 512 * (t.val % 8) + p.val < 4096 := by have := p.isLt; have := Nat.mod_lt t.val (show 0 < 8 by decide); omega
    rw [table_eq m c t b hb p ⟨512 * (t.val % 8) + p.val, hlt⟩ rfl q]
    exact h p ⟨512 * (t.val % 8) + p.val, hlt⟩ rfl

/-- The same from the reset row: `+∞` bounds everything, and no point comes before tile `0`. -/
theorem step_first (c : Dev nD) (t : Fin cfg0.N) (h0 : t.val % 8 = 0) (b : Fin 4) (hb : b.val = t.val / 8) (q : Fin 4096) (e : EReal) :
    e ≤ k0_pay1 (F := Ideal) (k0_pay6 (F := Ideal) (iblk m c 0 t) (iblk m c 1 t) (k0_pay3 (F := Ideal))) (ix2 (0 : Fin 1) q)
      ↔ ∀ P : Fin 4096, P.val < 512 * (t.val % 8 + 1) → e ≤ gap (pt (Y m c) b P) (pt (X m c) b q) :=
  step m c t b hb (k0_pay3 (F := Ideal)) q e (by
    rw [Tile.reset_apply q, inf_eq_top, h0]
    exact ⟨fun _ P hP => absurd hP (by omega), fun _ => le_top⟩)

/-- THE CARRIED ROW after point `n`: a number lies below its entry `q` exactly when it lies below the distance from
    point `q` of the first cloud to every point of the second cloud's tiles `0 … n % 8`, in batch `n / 8`. -/
theorem carried_iff (c : Dev nD) : ∀ (n : ℕ) (h : n < cfg0.N) (b : Fin 4), b.val = n / 8 → ∀ (q : Fin 4096) (e : EReal),
    (e ≤ (outsAt0 m c n h).2.2 (ix2 (0 : Fin 1) q)
      ↔ ∀ P : Fin 4096, P.val < 512 * (n % 8 + 1) → e ≤ gap (pt (Y m c) b P) (pt (X m c) b q))
  | 0, h, b, hb, q, e => by
    rw [carried_eq_first m c ⟨0, h⟩ rfl]
    exact step_first m c ⟨0, h⟩ rfl b hb q e
  | n + 1, h, b, hb, q, e => by
    by_cases h0 : (n + 1) % 8 = 0
    · rw [carried_eq_first m c ⟨n + 1, h⟩ h0]
      exact step_first m c ⟨n + 1, h⟩ h0 b hb q e
    · rw [carried_eq_next m c ⟨n + 1, h⟩ h0]
      refine step m c ⟨n + 1, h⟩ b hb (prev m c ⟨n + 1, h⟩) q e ?_
      have hb' : b.val = n / 8 := by have : (n + 1) / 8 = n / 8 := by omega
                                     omega
      have ih := carried_iff c n (Nat.lt_of_succ_lt h) b hb' q e
      have hk : n % 8 + 1 = (n + 1) % 8 := by omega
      rw [hk] at ih
      exact ih

/-! ## The second result -/

/-- Entry `q` of the second result's block after the last tile of a batch: the least distance from point `q` of the
    first cloud to the second cloud. -/
theorem second_apply (c : Dev nD) (t : Fin cfg0.N) (h7 : t.val % 8 = 7) (b : Fin 4) (hb : b.val = t.val / 8) (q : Fin 4096) :
    (outsAt0 m c t.val t.isLt).2.1 (ix3 (0 : Fin 1) (0 : Fin 1) q) = nearSecond (X m c) (Y m c) b q := by
  have h0 : ¬t.val % 8 = 0 := by omega
  rw [second_eq m c t h7]
  refine (Tile.copy_apply _ q).trans ?_
  rw [← carried_eq_next m c t h0]
  refine eq_of_forall_le_iff fun e => ?_
  rw [carried_iff m c t.val t.isLt b hb q e, le_nearSecond_iff, h7]
  exact ⟨fun h P => h P (by have := P.isLt; omega), fun h P _ => h P⟩

end Cert.KernelIdeal.Carried

end
-- ==== Proof.KernelLoss.lean ====
/-
  The kernel computes the loss.

  Every grid point writes its block of the first result back, and the blocks of the 32 points tile the `[4, 1, 4096]`
  array: entry `(b, 0, P)` lies in the block of point `8 b + P / 512`. So the first result array ends holding the
  first margin at every entry. The second result's block is written back only after the last tile of a batch, and
  those four blocks are the four rows of the array: it ends holding the second margin. The lines after the region sum
  each array over all its entries from `0`, divide by `16384` and add; a sum over the entries of a `[4, 1, 4096]` array
  is the sum over the entries of the `[4, 4096]` array it flattens to, so the result is the loss.
-/
import proofs.«153332_j9268539424789_2_alg».proof.Proof.Gen.KernelIdeal.Frame
import proofs.«153332_j9268539424789_2_alg».proof.Proof.Carried
import proofs.«153332_j9268539424789_2_alg».proof.Proof.Blocks
import proofs.«153332_j9268539424789_2_alg».proof.Proof.Dist
import Idealize.ShloMosaic.Lib.Pipeline.Value
import Idealize.ShloMosaic.Lib.StableHlo.Run
import Idealize.ShloMosaic.PureOps.Ideal.Laws

open scoped BigOperators

noncomputable section

open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx Cert.Chamfer Cert.KernelIdeal.Carried

variable (m : (ℓ : Loc nD τ sig) → Buf (Elt Ideal) ℓ) (ρ : Dev nD → PrngReg)

/-- The two margins laid out as the kernel's result arrays, `[4, 1, 4096]`. -/
abbrev firstArr (c : Dev nD) : S4x1x4096.Idx → EReal := fun j => nearFirst (X m c) (Y m c) (j 0) (j 2)
abbrev secondArr (c : Dev nD) : S4x1x4096.Idx → EReal := fun j => nearSecond (X m c) (Y m c) (j 0) (j 2)

/-! ## The first result -/

/-- What point `t` writes back to the first result is block `t` of the first margin. -/
theorem flushed_first (c : Dev nD) (t : Fin cfg0.N) :
    (dats m 0 c).flushed 2 t = ((cfg0.win 2).blk t).view.read (Elt Ideal) (firstArr m c) := by
  have hN : t.val < 32 := lt_of_lt_of_eq t.isLt (show cfg0.N = 32 from N_0)
  obtain ⟨-, -, -, -, -, -, e0, e1, e2, -⟩ := Blocks.idx_facts t
  show (cfg0.win 2).cut (grid0.coords t) ((dats m 0 c).after 2 t) = _
  rw [after0_2]
  funext j
  have hj2 : (j 2).val < 512 := (j 2).isLt
  have hj : j = ix3 (0 : Fin 1) (0 : Fin 1) (⟨(j 2).val, hj2⟩ : Fin 512) := funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => rfl)
  have hb : (⟨t.val / 8, by omega⟩ : Fin 4).val = t.val / 8 := rfl
  have hlt : 512 * (t.val % 8) + (j 2).val < 4096 := by omega
  show (outsAt0 m c t.val t.isLt).1 j = firstArr m c (((cfg0.win 2).blk t).view.emb j)
  refine ((congrArg (outsAt0 m c t.val t.isLt).1 hj).trans
    (first_apply m c t ⟨t.val / 8, by omega⟩ hb ⟨(j 2).val, hj2⟩ ⟨512 * (t.val % 8) + (j 2).val, hlt⟩ rfl)).trans ?_
  show nearFirst (X m c) (Y m c) _ _ = nearFirst (X m c) (Y m c) ((((cfg0.win 2).blk t).view.emb j) 0) ((((cfg0.win 2).blk t).view.emb j) 2)
  refine congrArg₂ (nearFirst (X m c) (Y m c)) (Fin.ext ?_) (Fin.ext ?_)
  · show t.val / 8 = win0_2.index t (0 : Fin 3) * 1 + 1 * (j 0).val
    have h : (j 0).val < 1 := (j 0).isLt
    omega
  · show 512 * (t.val % 8) + (j 2).val = win0_2.index t (2 : Fin 3) * 512 + 1 * (j 2).val
    omega

/-- An entry lies in point `t`'s block of the first result when each coordinate lies in the block's range. -/
theorem mem_blk_first (t : Fin cfg0.N) (i : S4x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v0_0).slice (win0_2.rect t)).set ↔ _
  rw [View.set_slice_whole, Rect.mem_set_unit]
  exact Iff.rfl

/-- Every entry of the first result lies in some point's block. -/
theorem cover_first (i : S4x1x4096.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 4096 := (i 2).isLt
  have hN : cfg0.N = 32 := N_0
  have ht : 8 * (i 0).val + (i 2).val / 512 < cfg0.N := by omega
  obtain ⟨-, -, -, -, -, -, e0, e1, e2, -⟩ := Blocks.idx_facts ⟨8 * (i 0).val + (i 2).val / 512, ht⟩
  have e0' : win0_2.index ⟨8 * (i 0).val + (i 2).val / 512, ht⟩ (0 : Fin 3) = (8 * (i 0).val + (i 2).val / 512) / 8 := e0
  have e2' : win0_2.index ⟨8 * (i 0).val + (i 2).val / 512, ht⟩ (2 : Fin 3) = (8 * (i 0).val + (i 2).val / 512) % 8 := e2
  refine ⟨⟨8 * (i 0).val + (i 2).val / 512, ht⟩, flush0_2 _, ?_⟩
  rw [mem_blk_first]
  intro a
  match a with
  | ⟨0, _⟩ =>
    show win0_2.index ⟨8 * (i 0).val + (i 2).val / 512, ht⟩ (0 : Fin 3) * 1 ≤ (i 0).val ∧ (i 0).val < win0_2.index ⟨8 * (i 0).val + (i 2).val / 512, ht⟩ (0 : Fin 3) * 1 + 1
    omega
  | ⟨1, _⟩ =>
    show win0_2.index ⟨8 * (i 0).val + (i 2).val / 512, ht⟩ (1 : Fin 3) * 1 ≤ (i 1).val ∧ (i 1).val < win0_2.index ⟨8 * (i 0).val + (i 2).val / 512, ht⟩ (1 : Fin 3) * 1 + 1
    omega
  | ⟨2, _⟩ =>
    show win0_2.index ⟨8 * (i 0).val + (i 2).val / 512, ht⟩ (2 : Fin 3) * 512 ≤ (i 2).val ∧ (i 2).val < win0_2.index ⟨8 * (i 0).val + (i 2).val / 512, ht⟩ (2 : Fin 3) * 512 + 512
    omega

/-- So the first result array ends holding the first margin. -/
theorem final_first (c : Dev nD) : (dats m 0 c).arrAt 2 cfg0.N = firstArr m c :=
  (dats m 0 c).arrAt_eq_of_cover 2 (firstArr m c) (fun t _ => flushed_first m c t) cover_first

/-! ## The second result -/

/-- What the last tile of a batch writes back to the second result is that batch's row of the second margin. -/
theorem flushed_second (c : Dev nD) (t : Fin cfg0.N) (hf : (cfg0.win 3).flush t = true) :
    (dats m 0 c).flushed 3 t = ((cfg0.win 3).blk t).view.read (Elt Ideal) (secondArr m c) := by
  have h7 : t.val % 8 = 7 := (flush0_3 t).mp hf
  have hN : t.val < 32 := lt_of_lt_of_eq t.isLt (show cfg0.N = 32 from N_0)
  obtain ⟨-, -, -, -, -, -, -, -, -, e0, e1, e2⟩ := Blocks.idx_facts t
  show (cfg0.win 3).cut (grid0.coords t) ((dats m 0 c).after 3 t) = _
  rw [after0_3]
  funext j
  have hj2 : (j 2).val < 4096 := (j 2).isLt
  have hj : j = ix3 (0 : Fin 1) (0 : Fin 1) (⟨(j 2).val, hj2⟩ : Fin 4096) := funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => rfl)
  have hb : (⟨t.val / 8, by omega⟩ : Fin 4).val = t.val / 8 := rfl
  show (outsAt0 m c t.val t.isLt).2.1 j = secondArr m c (((cfg0.win 3).blk t).view.emb j)
  refine ((congrArg (outsAt0 m c t.val t.isLt).2.1 hj).trans
    (second_apply m c t h7 ⟨t.val / 8, by omega⟩ hb ⟨(j 2).val, hj2⟩)).trans ?_
  show nearSecond (X m c) (Y m c) _ _ = nearSecond (X m c) (Y m c) ((((cfg0.win 3).blk t).view.emb j) 0) ((((cfg0.win 3).blk t).view.emb j) 2)
  refine congrArg₂ (nearSecond (X m c) (Y m c)) (Fin.ext ?_) (Fin.ext ?_)
  · show t.val / 8 = win0_3.index t (0 : Fin 3) * 1 + 1 * (j 0).val
    have h : (j 0).val < 1 := (j 0).isLt
    omega
  · show (j 2).val = win0_3.index t (2 : Fin 3) * 4096 + 1 * (j 2).val
    omega

theorem mem_blk_second (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every entry of the second result lies in the block written back after the last tile of its batch. -/
theorem cover_second (i : S4x1x4096.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 4096 := (i 2).isLt
  have hN : cfg0.N = 32 := N_0
  have ht : 8 * (i 0).val + 7 < cfg0.N := by omega
  obtain ⟨-, -, -, -, -, -, -, -, -, e0, e1, e2⟩ := Blocks.idx_facts ⟨8 * (i 0).val + 7, ht⟩
  have e0' : win0_3.index ⟨8 * (i 0).val + 7, ht⟩ (0 : Fin 3) = (8 * (i 0).val + 7) / 8 := e0
  refine ⟨⟨8 * (i 0).val + 7, ht⟩, (flush0_3 _).mpr (by show (8 * (i 0).val + 7) % 8 = 7; omega), ?_⟩
  rw [mem_blk_second]
  intro a
  match a with
  | ⟨0, _⟩ =>
    show win0_3.index ⟨8 * (i 0).val + 7, ht⟩ (0 : Fin 3) * 1 ≤ (i 0).val ∧ (i 0).val < win0_3.index ⟨8 * (i 0).val + 7, ht⟩ (0 : Fin 3) * 1 + 1
    omega
  | ⟨1, _⟩ =>
    show win0_3.index ⟨8 * (i 0).val + 7, ht⟩ (1 : Fin 3) * 1 ≤ (i 1).val ∧ (i 1).val < win0_3.index ⟨8 * (i 0).val + 7, ht⟩ (1 : Fin 3) * 1 + 1
    omega
  | ⟨2, _⟩ =>
    show win0_3.index ⟨8 * (i 0).val + 7, ht⟩ (2 : Fin 3) * 4096 ≤ (i 2).val ∧ (i 2).val < win0_3.index ⟨8 * (i 0).val + 7, ht⟩ (2 : Fin 3) * 4096 + 4096
    omega

/-- So the second result array ends holding the second margin. -/
theorem final_second (c : Dev nD) : (dats m 0 c).arrAt 3 cfg0.N = secondArr m c :=
  (dats m 0 c).arrAt_eq_of_cover 3 (secondArr m c) (flushed_second m c) cover_second

/-! ## The lines after the region -/

/-- A sum over all entries of a `[4, 1, 4096]` array from the word `0`, as the lines after the region take it. -/
theorem sumAll_apply (A : FVec Ideal S4x1x4096 .f32) (i : S_.Idx) :
    Host.reduceAdd (F := Ideal) A (constant (F := Ideal) S_ .f32 0x00000000#32) reducesTo_S4x1x4096_S_d0_1_2 h_S_ i
      = zero + ∑ j : S4x1x4096.Idx, A j := by
  simp only [Host.reduceAdd, Ideal.hostReduceAdd_def]
  exact Ideal.hostReduceAdd_total reducesTo_S4x1x4096_S_d0_1_2 (fun b => b.elim0) A _ i

/-- The tail applied to the two margins is the loss. -/
theorem tail_apply (x y : Clouds) (i : S_.Idx) :
    addf (F := Ideal)
      (Host.divf (F := Ideal) (Host.reduceAdd (F := Ideal) (fun j : S4x1x4096.Idx => nearFirst x y (j 0) (j 2)) (constant (F := Ideal) S_ .f32 0x00000000#32) reducesTo_S4x1x4096_S_d0_1_2 h_S_) (constant (F := Ideal) S_ .f32 0x46800000#32))
      (Host.divf (F := Ideal) (Host.reduceAdd (F := Ideal) (fun j : S4x1x4096.Idx => nearSecond x y (j 0) (j 2)) (constant (F := Ideal) S_ .f32 0x00000000#32) reducesTo_S4x1x4096_S_d0_1_2 h_S_) (constant (F := Ideal) S_ .f32 0x46800000#32)) i
      = loss x y := by
  show Ideal.div (Host.reduceAdd (F := Ideal) _ _ reducesTo_S4x1x4096_S_d0_1_2 h_S_ i) count
      + Ideal.div (Host.reduceAdd (F := Ideal) _ _ reducesTo_S4x1x4096_S_d0_1_2 h_S_ i) count = _
  rw [sumAll_apply, sumAll_apply]
  unfold loss
  rw [sum_dropMid (fun b p => nearFirst x y b p), sum_dropMid (fun b p => nearSecond x y b p)]

/-- The result buffer after the lines that follow the region. -/
theorem tail (c : Dev nD) :
    Pipeline.afterTail₀ cfgs (dats m) 0 (V0 m) [hostOps1] c main_v5 = fun _ => loss (X m c) (Y m c) := by
  have e1 := (Pipeline.withArrays_arr spec0 launch0.win.arr_inj c (V0 m c) (fun w => (dats m 0 c).arrAt w cfg0.N) 2).trans (final_first m c)
  have e2 := (Pipeline.withArrays_arr spec0 launch0.win.arr_inj c (V0 m c) (fun w => (dats m 0 c).arrAt w cfg0.N) 3).trans (final_second m c)
  unfold Pipeline.afterTail₀
  show StableHlo.after hostOps1 _ (Proc.devRef .tc main_v5) = _
  after_results
  funext i
  have e1' : Pipeline.withArrays (cfgs 0).spec c (V0 m c) (fun w => (dats m 0 c).arrAt w (cfgs 0).N) (Proc.devRef .tc main_v0_0)
      = firstArr m c := e1
  have e2' : Pipeline.withArrays (cfgs 0).spec c (V0 m c) (fun w => (dats m 0 c).arrAt w (cfgs 0).N) (Proc.devRef .tc main_v0_1)
      = secondArr m c := e2
  rw [e1', e2']
  exact tail_apply (X m c) (Y m c) i

/-! ## The run, read -/

/-- Every weakly fair execution of the kernel's program ends with its result at the loss of the two clouds as the
    program found them, and the two clouds unchanged. -/
theorem run : θ_run defs (onTc (τ := τ) (main (F := Ideal))) ⟨m, fun _ => 0, ρ⟩ fun r => ∀ c : Dev nD,
      r.2.mem ((c.tc : Thread nD τ).loc main_v5) = (fun _ => loss (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v5 (Pipeline.mem_restRefs_of main_v5 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.RefLoss.lean ====
/-
  The reference computes the loss.

  Read one operation at a time, the reference's distance table at `(b, p, q)` is `gap` of point `p` of the second
  cloud and point `q` of the first (its squared norms are sums from `0`, and `0 + s = s`; its inner product a batched
  contraction over the coordinate axis; the broadcasts only re-index). Its two reductions by `min` from `+∞`, along
  the last axis and along the middle axis of the table, are the two nearest-neighbour margins; and its result is the
  sum of each margin from `0` divided by `16384`, the two quotients added: the loss.
-/
import proofs.«153332_j9268539424789_2_alg».proof.Proof.Gen.ReferenceIdeal.Read
import proofs.«153332_j9268539424789_2_alg».proof.Proof.LibMinReduce
import proofs.«153332_j9268539424789_2_alg».proof.Proof.Dist

open scoped BigOperators

noncomputable section

namespace Cert.ReferenceIdeal.RefValue

open Cert.ReferenceIdeal Cert.ReferenceIdeal.Gen Cert.ReferenceIdeal.Read Idealize.ShloMosaic Idealize.ShloMosaic.ValueIdx Cert.Chamfer

/-- A sum taken from the word `0x00000000` is the sum. -/
theorem ofBits_zero_add (s : EReal) : Ideal.ofBits .f32 0x00000000#32 + s = s := by
  rw [Ideal.ofBits_zero_f32, zero_add]

/-- The reference's table at `(b, p, q)`. -/
theorem stage_dist (x y : Clouds) (b : Fin 4) (p q : Fin 4096) :
    val_main_v15 (F := Ideal) x y (ix3 b p q) = gap (pt y b p) (pt x b q) := by
  have e7 : ∀ k : Fin 3, idx_main_v3 (idx_main_v5 (idx_main_v7 (ix3 b p q))) k = ix3 b p k := fun k =>
    funext fun a => Fin.ext (by match a with | ⟨0, _⟩ => rfl | ⟨1, _⟩ => rfl | ⟨2, _⟩ => rfl)
  have e8 : ∀ k : Fin 3, idx_main_v1 (idx_main_v6 (idx_main_v8 (ix3 b p q))) k = ix3 b q k := fun k =>
    funext fun a => Fin.ext (by match a with | ⟨0, _⟩ => rfl | ⟨1, _⟩ => rfl | ⟨2, _⟩ => rfl)
  have el : ∀ k : Fin 3, lidx_main_v4 (ix3 b p q) k = ix3 b p k := fun k =>
    funext fun a => Fin.ext (by match a with | ⟨0, _⟩ => rfl | ⟨1, _⟩ => rfl | ⟨2, _⟩ => rfl)
  have er : ∀ k : Fin 3, ridx_main_v4 (ix3 b p q) k = ix3 b q k := fun k =>
    funext fun a => Fin.ext (by match a with | ⟨0, _⟩ => rfl | ⟨1, _⟩ => rfl | ⟨2, _⟩ => rfl)
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v5_apply, val_main_v3_apply, val_main_v8_apply, val_main_v6_apply, val_main_v1_apply,
    val_main_cst_0_apply, val_main_cst_apply]
  simp only [e7, e8, el, er, val_main_v2_apply, val_main_v0_apply, Ideal.hostUnary_sqrt_def, Ideal.maximumf_def,
    Ideal.subf_def, Ideal.addf_def, Ideal.mulf_def, Ideal.ofBits_def, ofBits_zero_add]
  rfl

/-- The reference's first margin: the table reduced by `min` along its last axis. -/
theorem stage_nearFirst (x y : Clouds) (b : Fin 4) (p : Fin 4096) :
    val_main_v16 (F := Ideal) x y (ix2 b p) = nearFirst x y b p := by
  unfold val_main_v16 nearFirst
  refine (Cert.Lib.MinReduce.hostReduce_minimumf_abc_ab_apply (val_main_v15 (F := Ideal) x y) (val_main_cst_3 (F := Ideal))
    reducesTo_S4x4096x4096_S4x4096_d2 (by decide) h_S_ b p).trans ?_
  exact congrArg ((Finset.univ : Finset (Fin 4096)).fold min inf) (funext fun q => stage_dist x y b p q)

/-- The reference's second margin: the table reduced by `min` along its middle axis. -/
theorem stage_nearSecond (x y : Clouds) (b : Fin 4) (q : Fin 4096) :
    val_main_v17 (F := Ideal) x y (ix2 b q) = nearSecond x y b q := by
  unfold val_main_v17 nearSecond
  refine (Cert.Lib.MinReduce.hostReduce_minimumf_abc_ac_apply (val_main_v15 (F := Ideal) x y) (val_main_cst_4 (F := Ideal))
    reducesTo_S4x4096x4096_S4x4096_d1 (by decide) h_S_ b q).trans ?_
  exact congrArg ((Finset.univ : Finset (Fin 4096)).fold min inf) (funext fun p => stage_dist x y b p q)

/-- The reference's result is the loss. -/
theorem result_eq (x y : Clouds) (i : S_.Idx) : val_main_v22 (F := Ideal) x y i = loss x y := by
  rw [val_main_v22_apply, val_main_v19_apply, val_main_v21_apply, val_main_v18_apply, val_main_v20_apply,
    val_main_cst_5_apply, val_main_cst_6_apply, val_main_cst_7_apply, val_main_cst_8_apply]
  simp only [Ideal.addf_def, Ideal.hostDivf_def, Ideal.ofBits_def]
  unfold loss
  have s1 : ∑ j : S4x4096.Idx, val_main_v16 (F := Ideal) x y j = ∑ j : (⟨2, ![4, 4096]⟩ : Shape).Idx, nearFirst x y (j 0) (j 1) :=
    Finset.sum_congr rfl fun j _ => (congrArg (val_main_v16 (F := Ideal) x y) (eq_ix2 j)).trans (stage_nearFirst x y (j 0) (j 1))
  have s2 : ∑ j : S4x4096.Idx, val_main_v17 (F := Ideal) x y j = ∑ j : (⟨2, ![4, 4096]⟩ : Shape).Idx, nearSecond x y (j 0) (j 1) :=
    Finset.sum_congr rfl fun j _ => (congrArg (val_main_v17 (F := Ideal) x y) (eq_ix2 j)).trans (stage_nearSecond x y (j 0) (j 1))
  rw [s1, s2]

end Cert.ReferenceIdeal.RefValue

end
-- ==== Proof.lean ====
/-
  The Chamfer loss of two batches of point clouds: the tiled kernel and the plain reference compute the same extended
  real.

  Both programs form, per batch, the table of distances between the 4096 points of the one cloud and the 4096 of the
  other by the expanded square, take each point's least distance to the other cloud, and add the means of the two
  margins. The reference does it on whole arrays. The kernel walks a 4 × 8 grid: each point stages one whole first
  cloud and a tile of 512 points of the second, writes the tile's row minima straight to the first result, and keeps
  the column minima in a row it carries across the eight tiles of a batch, starting from `+∞` and copied to the second
  result after the last tile; the matrix product's operands are narrowed first, which over the extended reals changes
  nothing. A minimum is determined by the numbers below it — `e ≤ min …` exactly when `e` is below every entry — so
  the minimum of the eight tiles' column minima is the column minimum of the whole table, with no order of taking
  minima compared with another; and the two results, laid out as `[4, 1, 4096]`, have the same total as the
  `[4, 4096]` margins. No finiteness of the inputs is used.

  Both idealized programs end at `Cert.Chamfer.loss` of their arguments (`Cert.KernelIdeal.Loss.run`,
  `Cert.ReferenceIdeal.RefValue.result_eq` over the reference's run); the three frames are the generated ones, the
  reference's its run with the result dropped; the idealization rewrote nothing.
-/
import proofs.«153332_j9268539424789_2_alg».proof.Defs
import proofs.«153332_j9268539424789_2_alg».proof.Proof.Gen.Kernel
import proofs.«153332_j9268539424789_2_alg».proof.Proof.Gen.Kernel.Skeleton
import proofs.«153332_j9268539424789_2_alg».proof.Proof.Gen.Kernel.Launch
import proofs.«153332_j9268539424789_2_alg».proof.Proof.Gen.Kernel.Points
import proofs.«153332_j9268539424789_2_alg».proof.Proof.Gen.Kernel.Frame
import proofs.«153332_j9268539424789_2_alg».proof.Proof.Gen.KernelIdeal
import proofs.«153332_j9268539424789_2_alg».proof.Proof.Gen.KernelIdeal.Skeleton
import proofs.«153332_j9268539424789_2_alg».proof.Proof.Gen.KernelIdeal.Launch
import proofs.«153332_j9268539424789_2_alg».proof.Proof.Gen.KernelIdeal.Points
import proofs.«153332_j9268539424789_2_alg».proof.Proof.Gen.KernelIdeal.Frame
import proofs.«153332_j9268539424789_2_alg».proof.Proof.Gen.ReferenceIdeal
import proofs.«153332_j9268539424789_2_alg».proof.Proof.Gen.ReferenceIdeal.Run
import proofs.«153332_j9268539424789_2_alg».proof.Proof.Gen.ReferenceIdeal.Read
import proofs.«153332_j9268539424789_2_alg».proof.Proof.Gen.Pre_finite_inputs
import proofs.«153332_j9268539424789_2_alg».proof.Proof.KernelLoss
import proofs.«153332_j9268539424789_2_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two clouds, both idealized programs end at the loss of those clouds. -/
theorem algebraic : Cert.algebraic_KernelIdeal_ReferenceIdeal := by
  intro m ρ m' ρ' _ hagree
  refine ⟨fun c => fun _ => Cert.Chamfer.loss (Cert.KernelIdeal.Carried.X m c) (Cert.KernelIdeal.Carried.Y m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  funext i
  exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
